-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S100000x128 : Shape := ⟨2, ![100000, 128]⟩
abbrev S16x128 : Shape := ⟨2, ![16, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_

variable [Facts]

def fn {F : FTy → Type} [FloatOps F] (main_arg0 : IVec S64 32) (main_arg1 : IVec S64 32) (main_arg2 : FVec F S100000x128 .f32) (main_arg3 : FVec F S16x128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S16x128 .f32 := Host.absf main_arg3
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  main_v8
-- ==== Kernel.lean ====
abbrev S64 : Shape := ⟨1, ![64]⟩
abbrev S100000x128 : Shape := ⟨2, ![100000, 128]⟩
abbrev S16x128 : Shape := ⟨2, ![16, 128]⟩
abbrev S_ : Shape := ⟨0, ![]⟩
abbrev S64x1 : Shape := ⟨2, ![64, 1]⟩
abbrev S64x128 : Shape := ⟨2, ![64, 128]⟩
abbrev S1x128 : Shape := ⟨2, ![1, 128]⟩
abbrev S128 : Shape := ⟨1, ![128]⟩
abbrev S64x16384 : Shape := ⟨2, ![64, 16384]⟩
abbrev S1024x128 : Shape := ⟨2, ![1024, 128]⟩
abbrev S64x1024 : Shape := ⟨2, ![64, 1024]⟩
abbrev S128x128 : Shape := ⟨2, ![128, 128]⟩
abbrev S64x1x128 : Shape := ⟨3, ![64, 1, 128]⟩
abbrev S1x128x128 : Shape := ⟨3, ![1, 128, 128]⟩
abbrev S64x128x128 : Shape := ⟨3, ![64, 128, 128]⟩

abbrev nBuf : Space → Nat
  | .hbm => 47
  | .vmem => 6
  | .smem => 0
  | _ => 0

abbrev bufTy : (tb : Table) → Fin (tcTables nBuf tb) → BufTy
  | .hbm, ⟨0, _⟩ => ⟨S64, .i32⟩
  | .hbm, ⟨1, _⟩ => ⟨S64, .i32⟩
  | .hbm, ⟨2, _⟩ => ⟨S100000x128, .f32⟩
  | .hbm, ⟨3, _⟩ => ⟨S16x128, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x128, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x128, .f32⟩
  | .hbm, ⟨22, _⟩ => ⟨S1x128, .f32⟩
  | .hbm, ⟨23, _⟩ => ⟨S128, .f32⟩
  | .hbm, ⟨24, _⟩ => ⟨S64x128, .f32⟩
  | .hbm, ⟨25, _⟩ => ⟨S_, .f32⟩
  | .hbm, ⟨26, _⟩ => ⟨S64, .f32⟩
  | .hbm, ⟨27, _⟩ => ⟨S1x128, .f32⟩
  | .hbm, ⟨28, _⟩ => ⟨S64x128, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S1x128, .f32⟩
  | .hbm, ⟨44, _⟩ => ⟨S64x128, .f32⟩
  | .hbm, ⟨45, _⟩ => ⟨S64x128, .f32⟩
  | .hbm, ⟨46, _⟩ => ⟨S64x16384, .f32⟩
  | .local _ .vmem, ⟨0, _⟩ => ⟨S64x128, .f32⟩
  | .local _ .vmem, ⟨1, _⟩ => ⟨S64x128, .f32⟩
  | .local _ .vmem, ⟨2, _⟩ => ⟨S1024x128, .f32⟩
  | .local _ .vmem, ⟨3, _⟩ => ⟨S1024x128, .f32⟩
  | .local _ .vmem, ⟨4, _⟩ => ⟨S64x1024, .f32⟩
  | .local _ .vmem, ⟨5, _⟩ => ⟨S64x1024, .f32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  slices_S16x128_S1x128_15_0 : S16x128.Slices ![15, 0] S1x128
  shapeCasts_S1x128_S128 : S1x128.ShapeCasts S128
  reducesTo_S64x128_S64_d1 : S64x128.ReducesTo [1] S64
  h_S_ : 0 < S_.numel
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  bitsLt_bf16_f32 : FTy.bits .bf16 < FTy.bits .f32
  inb_S1024x128_S128x128_0_0 : ∀ a, (![0, 0] : Fin 2 → Nat) a + S128x128.size a ≤ S1024x128.size a
  h_S128x128 : 0 < S128x128.numel
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  reduces_S64x128x128_S64x128 : S64x128x128.Reduces [2] S64x128
  inb_S64x1024_S64x128_0_0 : ∀ a, (![0, 0] : Fin 2 → Nat) a + S64x128.size a ≤ S64x1024.size a
  inb_S1024x128_S128x128_128_0 : ∀ a, (![128, 0] : Fin 2 → Nat) a + S128x128.size a ≤ S1024x128.size a
  inb_S64x1024_S64x128_0_128 : ∀ a, (![0, 128] : Fin 2 → Nat) a + S64x128.size a ≤ S64x1024.size a
  inb_S1024x128_S128x128_256_0 : ∀ a, (![256, 0] : Fin 2 → Nat) a + S128x128.size a ≤ S1024x128.size a
  inb_S64x1024_S64x128_0_256 : ∀ a, (![0, 256] : Fin 2 → Nat) a + S64x128.size a ≤ S64x1024.size a
  inb_S1024x128_S128x128_384_0 : ∀ a, (![384, 0] : Fin 2 → Nat) a + S128x128.size a ≤ S1024x128.size a
  inb_S64x1024_S64x128_0_384 : ∀ a, (![0, 384] : Fin 2 → Nat) a + S64x128.size a ≤ S64x1024.size a
  inb_S1024x128_S128x128_512_0 : ∀ a, (![512, 0] : Fin 2 → Nat) a + S128x128.size a ≤ S1024x128.size a
  inb_S64x1024_S64x128_0_512 : ∀ a, (![0, 512] : Fin 2 → Nat) a + S64x128.size a ≤ S64x1024.size a
  inb_S1024x128_S128x128_640_0 : ∀ a, (![640, 0] : Fin 2 → Nat) a + S128x128.size a ≤ S1024x128.size a
  inb_S64x1024_S64x128_0_640 : ∀ a, (![0, 640] : Fin 2 → Nat) a + S64x128.size a ≤ S64x1024.size a
  inb_S1024x128_S128x128_768_0 : ∀ a, (![768, 0] : Fin 2 → Nat) a + S128x128.size a ≤ S1024x128.size a
  inb_S64x1024_S64x128_0_768 : ∀ a, (![0, 768] : Fin 2 → Nat) a + S64x128.size a ≤ S64x1024.size a
  inb_S1024x128_S128x128_896_0 : ∀ a, (![896, 0] : Fin 2 → Nat) a + S128x128.size a ≤ S1024x128.size a
  inb_S64x1024_S64x128_0_896 : ∀ a, (![0, 896] : Fin 2 → Nat) a + S64x128.size a ≤ S64x1024.size a
  inb_S1024x128_S1024x128_0_0 : ∀ a, (![0, 0] : Fin 2 → Nat) a + S1024x128.size a ≤ S1024x128.size a
  h_S1024x128 : 0 < S1024x128.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  gather_S100000x128_S64x1_S64x128_1_0_n_n_0_1_1128_wf : GatherDims.WF S100000x128 S64x1 S64x128 [1] [0] [] [0] [] 1 ![1, 128]
  dot_S64x128_S1024x128_S64x1024_1_1_0_0_n_n_wf : DotDims.WF S64x128 S1024x128 S64x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S64x128.size a
  hwx0_0 : ∀ i : grid0.Coords, EltTy.bits .f32 = 32 ∨ (Rect.block (s := S64x128) S64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x128.size a < S100000x128.size a
  hwx0_2 : ∀ i : grid0.Coords, EltTy.bits .f32 = 32 ∨ (Rect.unit (s := S100000x128) (fun a => cc0_transform_2 i a * S1024x128.size a) (fun a => (Pipeline.Clip.of (cc0_transform_2 i a) (S1024x128.size a) (S100000x128.size a)).extent (S1024x128.size a)) fun a => Pipeline.Clip.inb (Pipeline.Clip.ok_of (hstart0_2 i a))).WholeWords (EltTy.packing .f32)
  hwxs0_2 : ∀ i : grid0.Coords, EltTy.bits .f32 = 32 ∨ (Rect.unit (s := S1024x128) (fun _ => 0) (fun a => (Pipeline.Clip.of (cc0_transform_2 i a) (S1024x128.size a) (S100000x128.size a)).extent (S1024x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x16384.size a
  hwx0_3 : ∀ i : grid0.Coords, EltTy.bits .f32 = 32 ∨ (Rect.block (s := S64x16384) S64x1024.size (cc0_transform_3 i) (hinb0_3 i)).WholeWords (EltTy.packing .f32)

variable [Facts₀]

def gather_S100000x128_S64x1_S64x128_1_0_n_n_0_1_1128 : GatherDims S100000x128 S64x1 S64x128 where
  offsetDims := [1]
  collapsedSliceDims := [0]
  operandBatchingDims := []
  startIndicesBatchingDims := []
  startIndexMap := [0]
  indexVectorDim := 1
  sliceSizes := ![1, 128]
  wf := gather_S100000x128_S64x1_S64x128_1_0_n_n_0_1_1128_wf
def dot_S64x128_S1024x128_S64x1024_1_1_0_0_n_n : DotDims S64x128 S1024x128 S64x1024 where
  lhsContracting := [1]
  rhsContracting := [1]
  lhsNonContracting := [0]
  rhsNonContracting := [0]
  lhsBatch := []
  rhsBatch := []
  wf := dot_S64x128_S1024x128_S64x1024_1_1_0_0_n_n_wf

abbrev win0_0 : Pipeline.Window sig grid0 :=
  Pipeline.Window.ofSpec (Memref.whole main_v6) S64x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v33) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S1024x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v34) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64 : Shape := ⟨1, ![64]⟩
abbrev S100000x128 : Shape := ⟨2, ![100000, 128]⟩
abbrev S16x128 : Shape := ⟨2, ![16, 128]⟩
abbrev S_ : Shape := ⟨0, ![]⟩
abbrev S64x1 : Shape := ⟨2, ![64, 1]⟩
abbrev S64x128 : Shape := ⟨2, ![64, 128]⟩
abbrev S1x128 : Shape := ⟨2, ![1, 128]⟩
abbrev S128 : Shape := ⟨1, ![128]⟩
abbrev S16384x128 : Shape := ⟨2, ![16384, 128]⟩
abbrev S64x16384 : Shape := ⟨2, ![64, 16384]⟩
abbrev S64x1x128 : Shape := ⟨3, ![64, 1, 128]⟩
abbrev S1x1x128 : Shape := ⟨3, ![1, 1, 128]⟩
abbrev S1x16384x128 : Shape := ⟨3, ![1, 16384, 128]⟩
abbrev S64x16384x128 : Shape := ⟨3, ![64, 16384, 128]⟩

abbrev nBuf : Space → Nat
  | .hbm => 65
  | .vmem => 0
  | .smem => 0
  | _ => 0

abbrev bufTy : (tb : Table) → Fin (tcTables nBuf tb) → BufTy
  | .hbm, ⟨0, _⟩ => ⟨S64, .i32⟩
  | .hbm, ⟨1, _⟩ => ⟨S64, .i32⟩
  | .hbm, ⟨2, _⟩ => ⟨S100000x128, .f32⟩
  | .hbm, ⟨3, _⟩ => ⟨S16x128, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x128, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x128, .f32⟩
  | .hbm, ⟨22, _⟩ => ⟨S1x128, .f32⟩
  | .hbm, ⟨23, _⟩ => ⟨S128, .f32⟩
  | .hbm, ⟨24, _⟩ => ⟨S16384x128, .f32⟩
  | .hbm, ⟨25, _⟩ => ⟨S64x128, .f32⟩
  | .hbm, ⟨26, _⟩ => ⟨S_, .f32⟩
  | .hbm, ⟨27, _⟩ => ⟨S64, .f32⟩
  | .hbm, ⟨28, _⟩ => ⟨S1x128, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64x16384, .f32⟩
  | .hbm, ⟨45, _⟩ => ⟨S64x1x128, .f32⟩
  | .hbm, ⟨46, _⟩ => ⟨S1x1x128, .f32⟩
  | .hbm, ⟨47, _⟩ => ⟨S64x1x128, .f32⟩
  | .hbm, ⟨48, _⟩ => ⟨S64x1x128, .f32⟩
  | .hbm, ⟨49, _⟩ => ⟨S1x16384x128, .f32⟩
  | .hbm, ⟨50, _⟩ => ⟨S64x16384x128, .f32⟩
  | .hbm, ⟨51, _⟩ => ⟨S64x16384x128, .f32⟩
  | .hbm, ⟨52, _⟩ => ⟨S64x16384x128, .f32⟩
  | .hbm, ⟨53, _⟩ => ⟨S64x16384x128, .f32⟩
  | .hbm, ⟨54, _⟩ => ⟨S_, .f32⟩
  | .hbm, ⟨55, _⟩ => ⟨S64x16384, .f32⟩
  | .hbm, ⟨56, _⟩ => ⟨S64x16384, .f32⟩
  | .hbm, ⟨57, _⟩ => ⟨S64x16384, .f32⟩
  | .hbm, ⟨58, _⟩ => ⟨S64x16384, .f32⟩
  | .hbm, ⟨59, _⟩ => ⟨S_, .f32⟩
  | .hbm, ⟨60, _⟩ => ⟨S64x16384, .f32⟩
  | .hbm, ⟨61, _⟩ => ⟨S64x16384, .f32⟩
  | .hbm, ⟨62, _⟩ => ⟨S_, .f32⟩
  | .hbm, ⟨63, _⟩ => ⟨S64x16384, .f32⟩
  | .hbm, ⟨64, _⟩ => ⟨S64x16384, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  slices_S16x128_S1x128_15_0 : S16x128.Slices ![15, 0] S1x128
  shapeCasts_S1x128_S128 : S1x128.ShapeCasts S128
  slices_S100000x128_S16384x128_0_0 : S100000x128.Slices ![0, 0] S16384x128
  reducesTo_S64x128_S64_d1 : S64x128.ReducesTo [1] S64
  h_S_ : 0 < S_.numel
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S64x128_S64x1x128_0_2 : S64x128.BroadcastsInDim S64x1x128 (![0, 2] : Fin 2 → Fin S64x1x128.rank)
  bcast_S128_S1x1x128_2 : S128.BroadcastsInDim S1x1x128 (![2] : Fin 1 → Fin S1x1x128.rank)
  bcast_S1x1x128_S64x1x128_0_1_2 : S1x1x128.BroadcastsInDim S64x1x128 (![0, 1, 2] : Fin 3 → Fin S64x1x128.rank)
  bcast_S16384x128_S1x16384x128_1_2 : S16384x128.BroadcastsInDim S1x16384x128 (![1, 2] : Fin 2 → Fin S1x16384x128.rank)
  bcast_S64x1x128_S64x16384x128_0_1_2 : S64x1x128.BroadcastsInDim S64x16384x128 (![0, 1, 2] : Fin 3 → Fin S64x16384x128.rank)
  bcast_S1x16384x128_S64x16384x128_0_1_2 : S1x16384x128.BroadcastsInDim S64x16384x128 (![0, 1, 2] : Fin 3 → Fin S64x16384x128.rank)
  reducesTo_S64x16384x128_S64x16384_d2 : S64x16384x128.ReducesTo [2] S64x16384
  bcast_S_S64x16384 : S_.BroadcastsInDim S64x16384 (![] : Fin 0 → Fin S64x16384.rank)
  gather_S100000x128_S64x1_S64x128_1_0_n_n_0_1_1128_wf : GatherDims.WF S100000x128 S64x1 S64x128 [1] [0] [] [0] [] 1 ![1, 128]
  dot_S64x128_S16384x128_S64x16384_1_1_0_0_n_n_wf : DotDims.WF S64x128 S16384x128 S64x16384 [1] [1] [0] [0] [] []

variable [Facts₀]

def gather_S100000x128_S64x1_S64x128_1_0_n_n_0_1_1128 : GatherDims S100000x128 S64x1 S64x128 where
  offsetDims := [1]
  collapsedSliceDims := [0]
  operandBatchingDims := []
  startIndicesBatchingDims := []
  startIndexMap := [0]
  indexVectorDim := 1
  sliceSizes := ![1, 128]
  wf := gather_S100000x128_S64x1_S64x128_1_0_n_n_0_1_1128_wf
def dot_S64x128_S16384x128_S64x16384_1_1_0_0_n_n : DotDims S64x128 S16384x128 S64x16384 where
  lhsContracting := [1]
  rhsContracting := [1]
  lhsNonContracting := [0]
  rhsNonContracting := [0]
  lhsBatch := []
  rhsBatch := []
  wf := dot_S64x128_S16384x128_S64x16384_1_1_0_0_n_n_wf

class Facts : Prop extends Facts₀ where

variable [Facts]
-- ==== Proof.IdealRun.lean ====
/-
  The ranking body on arbitrary whole staging buffers, at any float instance.

  The body holds three inputs: the user rows `u` (64 x 128), the user rows shifted by the relation row `u + buy`
  (64 x 128) and a block of 1024 candidate rows (1024 x 128). It fills its 64 x 1024 output buffer in two passes.
  First, for each of the eight chunks of 128 candidates, it stores into columns 128k .. 128k + 127 the L1 distances
  of every shifted user row to every candidate row of the chunk. Then it reads the whole buffer back, adds the
  64 x 1024 matrix of inner products of user rows with candidate rows, applies the logistic function, and stores
  the whole buffer. The loads of the output buffer that precede each chunk store are never used.

  Stated here: run on buffers holding `x1`, `x2`, `x3` and (the output) `xo`, the body ends with the inputs
  unchanged and the output buffer overwritten by a list of nine stored pieces, the last whole store first. The
  list is what the symbolic run of the body finds.
-/
import proofs.«116940_j35450660061923_2_alg».proof.Proof.Gen.KernelIdeal.Frame
import proofs.«116940_j35450660061923_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's nine stores leave in the output buffer (last store first), with the proof that the body,
    run on whole buffers at `x1`, `x2`, `x3`, `xo`, reaches its continuation with the inputs as they were and the
    output buffer overwritten by those pieces. -/
noncomputable def kernelRun (c : Dev nD) (i : grid0.Coords)
    (arg1 : Memref sig .tc .vmem S64x128 .f32) (harg1 : arg1.IsWhole)
    (arg2 : Memref sig .tc .vmem S64x128 .f32) (harg2 : arg2.IsWhole)
    (arg3 : Memref sig .tc .vmem S1024x128 .f32) (harg3 : arg3.IsWhole)
    (arg4 : Memref sig .tc .vmem S64x1024 .f32) (harg4 : arg4.IsWhole)
    (x1 x2 : Vec F S64x128 .f32) (x3 : Vec F S1024x128 .f32) (xo : Vec F S64x1024 .f32) :
    { L : List (View.Piece (Elt F) S64x1024 .f32) //
      ∀ (E : Set ℕ) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare xo
            ∗ (iprop(owns (c : Thread nD τ) arg1 fullShare x1 ∗ owns (c : Thread nD τ) arg2 fullShare x2
                ∗ owns (c : Thread nD τ) arg3 fullShare x3
                ∗ (∃ f, arg4.view.loc (c : Thread nD τ) ↦[arg4.view.set]{fullShare} arg4.view.writes (Elt F) f L)) -∗ K ⟨⟩))
          ⊢ wp frame (wpE (defs₀ (F := F)) Variants.none c none) E
              (cc0__ranking_kernel i arg1 harg1 arg2 harg2 arg3 harg3 arg4 harg4) K } := by
  refine ⟨?_, fun E K => ?run⟩
  case run =>
    simp only [cc0__ranking_kernel_eq_skeleton]; unfold cc0__ranking_kernel_skel
    simp only [k0_part1_eq_skeleton, k0_part2_eq_skeleton]
    unfold owns
    iintro ⟨⟨%f1, %hf1, H1⟩, ⟨%f2, %hf2, H2⟩, ⟨%f3, %hf3, H3⟩, ⟨%fo, %hfo, Ho⟩, Hk⟩
    obtain rfl := harg1.eq_unread hf1; obtain rfl := harg2.eq_unread hf2
    obtain rfl := harg3.eq_unread hf3; obtain rfl := harg4.eq_unread hfo
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    iexists _; iexact Ho

end Cert.KernelIdeal.Body

end
-- ==== Proof.IdealFrame.lean ====
/-
  The frame of the ranking call, at any float instance: the proof data of the pipeline, the body at a generic
  grid point, and the run.

  The grid has sixteen points. The two 64 x 128 inputs are fetched once and stay; the 1024-row block of candidate
  rows is fetched at every point, point `t` taking rows 1024 t .. 1024 t + 1023 of the 100000-row table; the
  64 x 1024 output block is written back at every point. The table's row count is not a multiple of 1024, so in
  general a block of it could run past the table's end and be cut; at these sixteen points none does
  (16 * 1024 <= 100000), so each fetch fills the whole staging buffer and nothing of its prior contents is left.
  The output buffer is found holding anything at every point, and the body overwrites all of it.
-/
import proofs.«116940_j35450660061923_2_alg».proof.Proof.IdealRun

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and what the body leaves in the output's -/

/-- One staging buffer of the output window: the output's contents are stated as read through it (which buffer
    is immaterial once the stored pieces cover the block). -/
abbrev VO : View sig .tc .vmem S64x1024 .f32 := (Memref.whole cc0_stg3_0 : Memref sig .tc .vmem S64x1024 .f32).view

/-- Each window's current staging buffer at point `t`, and that it is a whole buffer. -/
abbrev ms0 (t : Fin cfg0.N) : Memref sig .tc .vmem S64x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x1024 .f32 := win0_3.stage (cfg0.slots t 3)
abbrev hs3 (t : Fin cfg0.N) : (ms3 t).IsWhole := hstage0_3 ((cfg0.slots t 3).cast nbuf0_3)

/-- Contents for a buffer whose contents are never read. -/
def zeros {s : Shape} : Vec F s .f32 := fun _ => Scalar.ofBits .f32 0#32

section
variable (c : Dev nD) (i : grid0.Coords)
    (arg1 : Memref sig .tc .vmem S64x128 .f32) (harg1 : arg1.IsWhole)
    (arg2 : Memref sig .tc .vmem S64x128 .f32) (harg2 : arg2.IsWhole)
    (arg3 : Memref sig .tc .vmem S1024x128 .f32) (harg3 : arg3.IsWhole)
    (arg4 : Memref sig .tc .vmem S64x1024 .f32) (harg4 : arg4.IsWhole)
    (x1 x2 : Vec F S64x128 .f32) (x3 : Vec F S1024x128 .f32)

/-- The stored pieces do not depend on what the output buffer held: every load of it that is used comes after
    the eight chunk stores, which cover it. -/
theorem pieces_indep (xo xo' : Vec F S64x1024 .f32) :
    (kernelRun c i arg1 harg1 arg2 harg2 arg3 harg3 arg4 harg4 x1 x2 x3 xo).1
      = (kernelRun c i arg1 harg1 arg2 harg2 arg3 harg3 arg4 harg4 x1 x2 x3 xo').1 := by
  unfold kernelRun; rfl

/-- Every index of the 64 x 1024 block lies in the whole-block rectangle. -/
theorem whole_mem (y : S64x1024.Idx) :
    y ∈ (Rect.unit (s := S64x1024) ![0, 0] ![64, 1024] inb_S64x1024_S64x1024_0_0).set :=
  Rect.mem_set_unit.mpr fun a => by
    have h := (y a).isLt
    match a with
    | ⟨0, _⟩ => exact ⟨Nat.zero_le _, by simpa using h⟩
    | ⟨1, _⟩ => exact ⟨Nat.zero_le _, by simpa using h⟩

/-- The pieces cover the block: the last store is of the whole block. -/
theorem covers (xo : Vec F S64x1024 .f32) (y : S64x1024.Idx) :
    ∃ pc ∈ (kernelRun c i arg1 harg1 arg2 harg2 arg3 harg3 arg4 harg4 x1 x2 x3 xo).1, y ∈ pc.1.set := by
  unfold kernelRun; dsimp only
  exact ⟨_, List.mem_cons_self, whole_mem y⟩

/-- What the body leaves in the output buffer: its pieces read back. -/
def outBlk : Vec F S64x1024 .f32 :=
  VO.read (Elt F) (VO.writes (Elt F) VO.junk (kernelRun c i arg1 harg1 arg2 harg2 arg3 harg3 arg4 harg4 x1 x2 x3 zeros).1)

end

/-! ## The candidate block at a point -/

/-- At none of the sixteen points is the candidate block cut: it ends inside the table. -/
theorem clip2 : ∀ (t : Fin cfg0.N) a, (cfg0.win 2).clip (cfg0.grid.coords t) a = none :=
  (by decide +kernel : ∀ (t : Fin grid0.N) (a : Fin 2), win0_2.clip (grid0.coords t) a = none)

/-- The candidate window's staging buffer once the fetch at point `t` has landed: the table's block there. (The
    filler is for the part of the buffer a cut fetch would not reach: at these points, none.) -/
def blk2 (c : Dev nD) (t : Fin cfg0.N) : Vec F S1024x128 .f32 :=
  win0_2.fill (grid0.coords t) zeros (iblk m c 2 t)

/-- Whatever the buffer held, after the fetch it holds that. -/
theorem fill2 (c : Dev nD) (t : Fin cfg0.N) (d : S1024x128.Idx → Elt F .f32) :
    win0_2.fill (grid0.coords t) d (iblk m c 2 t) = blk2 m c t :=
  Pipeline.fill_of_clip_none (cfg := cfg0) (2 : Fin 4) (grid0.coords t) (clip2 t) d zeros (iblk m c 2 t)

/-! ## The proof data -/

/-- What the output buffer holds after the body at point `t`: the body's pieces on the point's buffers, the
    inputs at their blocks. -/
def outsAt (c : Dev nD) (t : Fin cfg0.N) : Vec F S64x1024 .f32 :=
  outBlk c (grid0.coords t) (ms0 t) (hs0 t) (ms1 t) (hs1 t) (ms2 t) (hs2 t) (ms3 t) (hs3 t)
    (iblk m c 0 t) (iblk m c 1 t) (blk2 m c t)

/-- The proof data of the pipeline on core `c`: the arrays as the region finds them; after the body each input's
    buffer at its block and the output's at `outsAt`; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blk2 m c t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = blk2 m c t := by dsimp only [dats]
theorem after3 (c : Dev nD) (t : Fin cfg0.N) : (dats m 0 c).after 3 t = outsAt m c t := by dsimp only [dats]

/-! ## What the body finds -/

/-- The two resident inputs hold their blocks at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The candidate window is fetched at every point: its buffer holds the point's block. -/
theorem before2 (c : Dev nD) (t : Fin cfg0.N) (d) : (dats m 0 c).before 2 t d = blk2 m c t := by
  rw [Dat.before_fetched _ 2 t (fetch0_2 t)]
  unfold Dat.fetched Dat.blockOf
  rw [A_eq]
  exact fill2 m c t d

/-- The output window was written back at the point before (or the point is the first): its buffer holds
    anything. -/
theorem before3 (c : Dev nD) (t : Fin cfg0.N) (d) : (dats m 0 c).before 3 t d = d :=
  Dat.before_out_reset _ 3 rfl t (by
    by_cases h : t.val = 0
    · exact .inl h
    · exact .inr ⟨h, flush0_3 _⟩) d

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns: the candidate window's buffer stated only on the part its fetch moves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare
        (win0_2.fill (grid0.coords t) d (win0_2.cut (grid0.coords t) ((dats m 0 c).after 2 t))))
    ∗ owns (c : Thread nD τ) (ms3 t) fullShare ((dats m 0 c).after 3 t))

set_option maxHeartbeats 1600000 in
/-- The body at any point: the inputs' buffers hold their blocks, the output's anything; the run applies; the
    inputs are handed back as found, the output at its pieces read back (they cover the block, so what the buffer
    held is gone); the invariant passes through unread; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  unfold outsAt outBlk
  iintro ⟨HΦ, Ho, ⟨%d0, H0⟩, ⟨%d1, H1⟩, ⟨%d2, H2⟩, ⟨%d3, H3⟩⟩
  iapply ((kernelRun c (grid0.coords t) _ _ _ _ _ _ _ _ (iblk m c 0 t) (iblk m c 1 t) (blk2 m c t) d3).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]
  · iexists (blk2 m c t)
    rw [Window.fill_cut]; iexact H2
  unfold owns; iexists _; isplitr
  swap; · iexact H3
  ipureintro
  rw [pieces_indep c _ _ _ _ _ _ _ _ _ _ _ _ d3 zeros]
  exact View.read_writes_of_cover _ _ _ _ _ (covers c _ _ _ _ _ _ _ _ _ _ _ _ _)

/-- The library's body obligation, at every point. -/
theorem body_obligation (c : Dev nD) :
    Pipeline.BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of the program terminates,
    every array of the pipeline ends at what the proof data computes and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, nothing faults, and the four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.WordRun.lean ====
/-
  The ranking body on arbitrary whole staging buffers, at any float instance.

  The body holds three inputs: the user rows `u` (64 x 128), the user rows shifted by the relation row `u + buy`
  (64 x 128) and a block of 1024 candidate rows (1024 x 128). It fills its 64 x 1024 output buffer in two passes.
  First, for each of the eight chunks of 128 candidates, it stores into columns 128k .. 128k + 127 the L1 distances
  of every shifted user row to every candidate row of the chunk. Then it reads the whole buffer back, adds the
  64 x 1024 matrix of inner products of user rows with candidate rows, applies the logistic function, and stores
  the whole buffer. The loads of the output buffer that precede each chunk store are never used.

  Stated here: run on buffers holding `x1`, `x2`, `x3` and (the output) `xo`, the body ends with the inputs
  unchanged and the output buffer overwritten by a list of nine stored pieces, the last whole store first. The
  list is what the symbolic run of the body finds.
-/
import proofs.«116940_j35450660061923_2_alg».proof.Proof.Gen.Kernel.Frame
import proofs.«116940_j35450660061923_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's nine stores leave in the output buffer (last store first), with the proof that the body,
    run on whole buffers at `x1`, `x2`, `x3`, `xo`, reaches its continuation with the inputs as they were and the
    output buffer overwritten by those pieces. -/
noncomputable def kernelRun (c : Dev nD) (i : grid0.Coords)
    (arg1 : Memref sig .tc .vmem S64x128 .f32) (harg1 : arg1.IsWhole)
    (arg2 : Memref sig .tc .vmem S64x128 .f32) (harg2 : arg2.IsWhole)
    (arg3 : Memref sig .tc .vmem S1024x128 .f32) (harg3 : arg3.IsWhole)
    (arg4 : Memref sig .tc .vmem S64x1024 .f32) (harg4 : arg4.IsWhole)
    (x1 x2 : Vec F S64x128 .f32) (x3 : Vec F S1024x128 .f32) (xo : Vec F S64x1024 .f32) :
    { L : List (View.Piece (Elt F) S64x1024 .f32) //
      ∀ (E : Set ℕ) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare xo
            ∗ (iprop(owns (c : Thread nD τ) arg1 fullShare x1 ∗ owns (c : Thread nD τ) arg2 fullShare x2
                ∗ owns (c : Thread nD τ) arg3 fullShare x3
                ∗ (∃ f, arg4.view.loc (c : Thread nD τ) ↦[arg4.view.set]{fullShare} arg4.view.writes (Elt F) f L)) -∗ K ⟨⟩))
          ⊢ wp frame (wpE (defs₀ (F := F)) Variants.none c none) E
              (cc0__ranking_kernel i arg1 harg1 arg2 harg2 arg3 harg3 arg4 harg4) K } := by
  refine ⟨?_, fun E K => ?run⟩
  case run =>
    simp only [cc0__ranking_kernel_eq_skeleton]; unfold cc0__ranking_kernel_skel
    simp only [k0_part1_eq_skeleton, k0_part2_eq_skeleton]
    unfold owns
    iintro ⟨⟨%f1, %hf1, H1⟩, ⟨%f2, %hf2, H2⟩, ⟨%f3, %hf3, H3⟩, ⟨%fo, %hfo, Ho⟩, Hk⟩
    obtain rfl := harg1.eq_unread hf1; obtain rfl := harg2.eq_unread hf2
    obtain rfl := harg3.eq_unread hf3; obtain rfl := harg4.eq_unread hfo
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    iexists _; iexact Ho

end Cert.Kernel.Body

end
-- ==== Proof.WordFrame.lean ====
/-
  The frame of the ranking call, at any float instance: the proof data of the pipeline, the body at a generic
  grid point, and the run.

  The grid has sixteen points. The two 64 x 128 inputs are fetched once and stay; the 1024-row block of candidate
  rows is fetched at every point, point `t` taking rows 1024 t .. 1024 t + 1023 of the 100000-row table; the
  64 x 1024 output block is written back at every point. The table's row count is not a multiple of 1024, so in
  general a block of it could run past the table's end and be cut; at these sixteen points none does
  (16 * 1024 <= 100000), so each fetch fills the whole staging buffer and nothing of its prior contents is left.
  The output buffer is found holding anything at every point, and the body overwrites all of it.
-/
import proofs.«116940_j35450660061923_2_alg».proof.Proof.WordRun

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and what the body leaves in the output's -/

/-- One staging buffer of the output window: the output's contents are stated as read through it (which buffer
    is immaterial once the stored pieces cover the block). -/
abbrev VO : View sig .tc .vmem S64x1024 .f32 := (Memref.whole cc0_stg3_0 : Memref sig .tc .vmem S64x1024 .f32).view

/-- Each window's current staging buffer at point `t`, and that it is a whole buffer. -/
abbrev ms0 (t : Fin cfg0.N) : Memref sig .tc .vmem S64x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x1024 .f32 := win0_3.stage (cfg0.slots t 3)
abbrev hs3 (t : Fin cfg0.N) : (ms3 t).IsWhole := hstage0_3 ((cfg0.slots t 3).cast nbuf0_3)

/-- Contents for a buffer whose contents are never read. -/
def zeros {s : Shape} : Vec F s .f32 := fun _ => Scalar.ofBits .f32 0#32

section
variable (c : Dev nD) (i : grid0.Coords)
    (arg1 : Memref sig .tc .vmem S64x128 .f32) (harg1 : arg1.IsWhole)
    (arg2 : Memref sig .tc .vmem S64x128 .f32) (harg2 : arg2.IsWhole)
    (arg3 : Memref sig .tc .vmem S1024x128 .f32) (harg3 : arg3.IsWhole)
    (arg4 : Memref sig .tc .vmem S64x1024 .f32) (harg4 : arg4.IsWhole)
    (x1 x2 : Vec F S64x128 .f32) (x3 : Vec F S1024x128 .f32)

/-- The stored pieces do not depend on what the output buffer held: every load of it that is used comes after
    the eight chunk stores, which cover it. -/
theorem pieces_indep (xo xo' : Vec F S64x1024 .f32) :
    (kernelRun c i arg1 harg1 arg2 harg2 arg3 harg3 arg4 harg4 x1 x2 x3 xo).1
      = (kernelRun c i arg1 harg1 arg2 harg2 arg3 harg3 arg4 harg4 x1 x2 x3 xo').1 := by
  unfold kernelRun; rfl

/-- Every index of the 64 x 1024 block lies in the whole-block rectangle. -/
theorem whole_mem (y : S64x1024.Idx) :
    y ∈ (Rect.unit (s := S64x1024) ![0, 0] ![64, 1024] inb_S64x1024_S64x1024_0_0).set :=
  Rect.mem_set_unit.mpr fun a => by
    have h := (y a).isLt
    match a with
    | ⟨0, _⟩ => exact ⟨Nat.zero_le _, by simpa using h⟩
    | ⟨1, _⟩ => exact ⟨Nat.zero_le _, by simpa using h⟩

/-- The pieces cover the block: the last store is of the whole block. -/
theorem covers (xo : Vec F S64x1024 .f32) (y : S64x1024.Idx) :
    ∃ pc ∈ (kernelRun c i arg1 harg1 arg2 harg2 arg3 harg3 arg4 harg4 x1 x2 x3 xo).1, y ∈ pc.1.set := by
  unfold kernelRun; dsimp only
  exact ⟨_, List.mem_cons_self, whole_mem y⟩

/-- What the body leaves in the output buffer: its pieces read back. -/
def outBlk : Vec F S64x1024 .f32 :=
  VO.read (Elt F) (VO.writes (Elt F) VO.junk (kernelRun c i arg1 harg1 arg2 harg2 arg3 harg3 arg4 harg4 x1 x2 x3 zeros).1)

end

/-! ## The candidate block at a point -/

/-- At none of the sixteen points is the candidate block cut: it ends inside the table. -/
theorem clip2 : ∀ (t : Fin cfg0.N) a, (cfg0.win 2).clip (cfg0.grid.coords t) a = none :=
  (by decide +kernel : ∀ (t : Fin grid0.N) (a : Fin 2), win0_2.clip (grid0.coords t) a = none)

/-- The candidate window's staging buffer once the fetch at point `t` has landed: the table's block there. (The
    filler is for the part of the buffer a cut fetch would not reach: at these points, none.) -/
def blk2 (c : Dev nD) (t : Fin cfg0.N) : Vec F S1024x128 .f32 :=
  win0_2.fill (grid0.coords t) zeros (iblk m c 2 t)

/-- Whatever the buffer held, after the fetch it holds that. -/
theorem fill2 (c : Dev nD) (t : Fin cfg0.N) (d : S1024x128.Idx → Elt F .f32) :
    win0_2.fill (grid0.coords t) d (iblk m c 2 t) = blk2 m c t :=
  Pipeline.fill_of_clip_none (cfg := cfg0) (2 : Fin 4) (grid0.coords t) (clip2 t) d zeros (iblk m c 2 t)

/-! ## The proof data -/

/-- What the output buffer holds after the body at point `t`: the body's pieces on the point's buffers, the
    inputs at their blocks. -/
def outsAt (c : Dev nD) (t : Fin cfg0.N) : Vec F S64x1024 .f32 :=
  outBlk c (grid0.coords t) (ms0 t) (hs0 t) (ms1 t) (hs1 t) (ms2 t) (hs2 t) (ms3 t) (hs3 t)
    (iblk m c 0 t) (iblk m c 1 t) (blk2 m c t)

/-- The proof data of the pipeline on core `c`: the arrays as the region finds them; after the body each input's
    buffer at its block and the output's at `outsAt`; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blk2 m c t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = blk2 m c t := by dsimp only [dats]
theorem after3 (c : Dev nD) (t : Fin cfg0.N) : (dats m 0 c).after 3 t = outsAt m c t := by dsimp only [dats]

/-! ## What the body finds -/

/-- The two resident inputs hold their blocks at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The candidate window is fetched at every point: its buffer holds the point's block. -/
theorem before2 (c : Dev nD) (t : Fin cfg0.N) (d) : (dats m 0 c).before 2 t d = blk2 m c t := by
  rw [Dat.before_fetched _ 2 t (fetch0_2 t)]
  unfold Dat.fetched Dat.blockOf
  rw [A_eq]
  exact fill2 m c t d

/-- The output window was written back at the point before (or the point is the first): its buffer holds
    anything. -/
theorem before3 (c : Dev nD) (t : Fin cfg0.N) (d) : (dats m 0 c).before 3 t d = d :=
  Dat.before_out_reset _ 3 rfl t (by
    by_cases h : t.val = 0
    · exact .inl h
    · exact .inr ⟨h, flush0_3 _⟩) d

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns: the candidate window's buffer stated only on the part its fetch moves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare
        (win0_2.fill (grid0.coords t) d (win0_2.cut (grid0.coords t) ((dats m 0 c).after 2 t))))
    ∗ owns (c : Thread nD τ) (ms3 t) fullShare ((dats m 0 c).after 3 t))

set_option maxHeartbeats 1600000 in
/-- The body at any point: the inputs' buffers hold their blocks, the output's anything; the run applies; the
    inputs are handed back as found, the output at its pieces read back (they cover the block, so what the buffer
    held is gone); the invariant passes through unread; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  unfold outsAt outBlk
  iintro ⟨HΦ, Ho, ⟨%d0, H0⟩, ⟨%d1, H1⟩, ⟨%d2, H2⟩, ⟨%d3, H3⟩⟩
  iapply ((kernelRun c (grid0.coords t) _ _ _ _ _ _ _ _ (iblk m c 0 t) (iblk m c 1 t) (blk2 m c t) d3).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]
  · iexists (blk2 m c t)
    rw [Window.fill_cut]; iexact H2
  unfold owns; iexists _; isplitr
  swap; · iexact H3
  ipureintro
  rw [pieces_indep c _ _ _ _ _ _ _ _ _ _ _ _ d3 zeros]
  exact View.read_writes_of_cover _ _ _ _ _ (covers c _ _ _ _ _ _ _ _ _ _ _ _ _)

/-- The library's body obligation, at every point. -/
theorem body_obligation (c : Dev nD) :
    Pipeline.BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of the program terminates,
    every array of the pipeline ends at what the proof data computes and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, nothing faults, and the four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.IdealPay.lean ====
import proofs.«116940_j35450660061923_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rank

open Cert.KernelIdeal Cert.KernelIdeal.Gen
open Idealize.ShloMosaic Idealize.ShloMosaic.ValueIdx

/-! ## Layout operations of the body, read at an index -/

section Layout
variable {α : Type}

/-- A 64 x 128 array viewed as 64 x 1 x 128: the middle coordinate is dropped. -/
theorem cast_rows (x : S64x128.Idx → α) (h : S64x128.ShapeCasts S64x1x128) (a : Fin 64) (u : Fin 1) (d : Fin 128) :
    shapeCast S64x1x128 x h (ix3 a u d) = x (ix2 a d) :=
  shapeCast_apply x h _ _ (by
    have hu : u.val = 0 := by omega
    rw [Shape.rowMajor_val_two, Shape.rowMajor_val_three]
    show a.val * 128 + d.val = (a.val * 1 + u.val) * 128 + d.val
    rw [hu, Nat.mul_one, Nat.add_zero])

/-- A 64 x 1 x 128 array repeated along the middle axis: every middle coordinate reads coordinate 0. -/
theorem spread_rows (x : S64x1x128.Idx → α) (h : S64x1x128.Broadcasts S64x128x128) (a : Fin 64) (c : Fin 128) (d : Fin 128) :
    broadcastTo S64x128x128 x h (ix3 a c d) = x (ix3 a (0 : Fin 1) d) :=
  broadcastTo_apply x h _ _ (fun ax => match ax with
    | ⟨0, _⟩ => by show a.val = if (64 : Nat) = 1 then 0 else a.val; rw [if_neg (by decide)]
    | ⟨1, _⟩ => by show 0 = if (1 : Nat) = 1 then 0 else c.val; rw [if_pos rfl]
    | ⟨2, _⟩ => by show d.val = if (128 : Nat) = 1 then 0 else d.val; rw [if_neg (by decide)])

/-- A 1 x 128 x 128 array repeated along the leading axis: every leading coordinate reads coordinate 0. -/
theorem spread_cands (x : S1x128x128.Idx → α) (h : S1x128x128.Broadcasts S64x128x128) (a : Fin 64) (c : Fin 128) (d : Fin 128) :
    broadcastTo S64x128x128 x h (ix3 a c d) = x (ix3 (0 : Fin 1) c d) :=
  broadcastTo_apply x h _ _ (fun ax => match ax with
    | ⟨0, _⟩ => by show 0 = if (1 : Nat) = 1 then 0 else a.val; rw [if_pos rfl]
    | ⟨1, _⟩ => by show c.val = if (128 : Nat) = 1 then 0 else c.val; rw [if_neg (by decide)]
    | ⟨2, _⟩ => by show d.val = if (128 : Nat) = 1 then 0 else d.val; rw [if_neg (by decide)])

end Layout

/-! ## One chunk's distances -/

/-- The L1 distance of row `b` of `v2` to row `q` of `ch`: what the body computes for one chunk of 128 candidates, as a
    lane sum over the 64 x 128 x 128 array of absolute differences, read at `(b, q)`. The lane sum starts from the
    zero word, which is the neutral element of addition: `hacc` says so in the form the body states it. -/
theorem chunkDist_apply (v2 : FVec Ideal S64x128 .bf16) (ch : FVec Ideal S128x128 .bf16)
    (h1 : S64x128.ShapeCasts S64x1x128) (h2 : S128x128.ShapeCasts S1x128x128)
    (h3 : S64x1x128.Broadcasts S64x128x128) (h4 : S1x128x128.Broadcasts S64x128x128)
    (hr : S64x128x128.Reduces [2] S64x128) (hb : FTy.bits .bf16 < FTy.bits .f32)
    (hφ : FKind.Formats .f32) (hacc : (0x00000000#32 : BitVec 32) = 0x00000000#32) (b : Fin 64) (q : Fin 128) :
    multiReduction .add [2] S64x128
        (extf .f32 (absf (subf (broadcastTo S64x128x128 (shapeCast S64x1x128 v2 h1) h3)
          (broadcastTo S64x128x128 (shapeCast S1x128x128 ch h2) h4))) hb)
        0x00000000#32 hr hφ hacc (ix2 b q)
      = ∑ d : Fin 128, FloatOps.absf (v2 (ix2 b d) - ch (ix2 q d)) := by
  refine (Ideal.multiReduction_add_single _ 0x00000000#32 hr hφ hacc (ix2 b q)).trans ?_
  refine Finset.sum_congr rfl fun (d : Fin 128) _ => ?_
  have e : hr.lift (ix2 b q) d = ix3 b q d :=
    funext fun a => Fin.ext (by match a with | ⟨0, _⟩ => rfl | ⟨1, _⟩ => rfl | ⟨2, _⟩ => rfl)
  rw [e]
  show FloatOps.absf (broadcastTo S64x128x128 (shapeCast S64x1x128 v2 h1) h3 (ix3 b q d)
      - broadcastTo S64x128x128 (shapeCast S1x128x128 ch h2) h4 (ix3 b q d)) = _
  rw [spread_rows, spread_cands, cast_rows, shapeCast_ab_1ab_apply]

/-! ## The eight chunk payloads -/

section Chunks
variable (v0 : Vec Ideal S64x128 .f32) (v2 : FVec Ideal S64x128 .bf16) (v : Vec Ideal S128x128 .f32) (b : Fin 64) (q : Fin 128)

/-- A chunk payload given the shifted user rows as loaded: narrowing to bf16 changes nothing over the extended
    reals, so the entry is the L1 distance of the loaded rows. -/
theorem pay5_apply : k0_pay5 v0 v (ix2 b q) = ∑ d : Fin 128, FloatOps.absf (v0 (ix2 b d) - v (ix2 q d)) := by
  unfold k0_pay5 k0_pay4
  refine (chunkDist_apply _ _ _ _ _ _ _ _ _ _ b q).trans (Finset.sum_congr rfl fun d _ => ?_)
  rw [truncf_apply, truncf_apply, shapeCast_self]
  rfl
theorem pay6_apply : k0_pay6 v0 v (ix2 b q) = ∑ d : Fin 128, FloatOps.absf (v0 (ix2 b d) - v (ix2 q d)) := by
  unfold k0_pay6 k0_pay4
  refine (chunkDist_apply _ _ _ _ _ _ _ _ _ _ b q).trans (Finset.sum_congr rfl fun d _ => ?_)
  rw [truncf_apply, truncf_apply, shapeCast_self]
  rfl
theorem pay7_apply : k0_pay7 v0 v (ix2 b q) = ∑ d : Fin 128, FloatOps.absf (v0 (ix2 b d) - v (ix2 q d)) := by
  unfold k0_pay7 k0_pay4
  refine (chunkDist_apply _ _ _ _ _ _ _ _ _ _ b q).trans (Finset.sum_congr rfl fun d _ => ?_)
  rw [truncf_apply, truncf_apply, shapeCast_self]
  rfl

/-- The narrowed user rows, read at an index, are the loaded rows. -/
theorem pay4_apply (d : Fin 128) : k0_pay4 v0 (ix2 b d) = v0 (ix2 b d) := by
  unfold k0_pay4
  rw [truncf_apply, shapeCast_self]

/-- A chunk payload given the user rows already narrowed. -/
theorem pay8_apply : k0_pay8 v2 v (ix2 b q) = ∑ d : Fin 128, FloatOps.absf (v2 (ix2 b d) - v (ix2 q d)) := by
  unfold k0_pay8
  refine (chunkDist_apply _ _ _ _ _ _ _ _ _ _ b q).trans (Finset.sum_congr rfl fun d _ => ?_)
  rw [truncf_apply]
theorem pay9_apply : k0_pay9 v2 v (ix2 b q) = ∑ d : Fin 128, FloatOps.absf (v2 (ix2 b d) - v (ix2 q d)) := by
  unfold k0_pay9
  refine (chunkDist_apply _ _ _ _ _ _ _ _ _ _ b q).trans (Finset.sum_congr rfl fun d _ => ?_)
  rw [truncf_apply]
theorem pay10_apply : k0_pay10 v2 v (ix2 b q) = ∑ d : Fin 128, FloatOps.absf (v2 (ix2 b d) - v (ix2 q d)) := by
  unfold k0_pay10
  refine (chunkDist_apply _ _ _ _ _ _ _ _ _ _ b q).trans (Finset.sum_congr rfl fun d _ => ?_)
  rw [truncf_apply]
theorem pay2_apply : k0_pay2 v2 v (ix2 b q) = ∑ d : Fin 128, FloatOps.absf (v2 (ix2 b d) - v (ix2 q d)) := by
  unfold k0_pay2
  refine (chunkDist_apply _ _ _ _ _ _ _ _ _ _ b q).trans (Finset.sum_congr rfl fun d _ => ?_)
  rw [truncf_apply]

/-- The seventh chunk's payload, whose lane sum the printed body splits from its summand. -/
theorem pay1_apply : k0_pay1 (k0_pay11 v2 v) (ix2 b q) = ∑ d : Fin 128, FloatOps.absf (v2 (ix2 b d) - v (ix2 q d)) := by
  unfold k0_pay1 k0_pay11
  refine (chunkDist_apply _ _ _ _ _ _ _ _ _ _ b q).trans (Finset.sum_congr rfl fun d _ => ?_)
  rw [truncf_apply]

end Chunks

/-! ## The inner products and the final payload -/

/-- The matrix product's dimension numbers: contract the last axis of both operands. -/
abbrev DK : DotDims S64x128 S1024x128 S64x1024 := dot_S64x128_S1024x128_S64x1024_1_1_0_0_n_n

theorem DK_lhs0 (i : S64x1024.Idx) (k : DK.contr.Idx) : (DK.lhsIdx i k 0).val = (i 0).val := by
  unfold DotDims.lhsIdx
  rw [dif_neg (show ¬(0 : Fin S64x128.rank) ∈ DK.lhsBatch by decide), dif_pos (show (0 : Fin S64x128.rank) ∈ DK.lhsNonContracting by decide)]
  rfl
theorem DK_lhs1 (i : S64x1024.Idx) (k : DK.contr.Idx) : (DK.lhsIdx i k 1).val = (k ⟨0, by decide⟩).val :=
  DK.lhsIdx_val_of_single rfl i k
theorem DK_rhs0 (i : S64x1024.Idx) (k : DK.contr.Idx) : (DK.rhsIdx i k 0).val = (i 1).val := by
  unfold DotDims.rhsIdx
  rw [dif_neg (show ¬(0 : Fin S1024x128.rank) ∈ DK.rhsBatch by decide), dif_pos (show (0 : Fin S1024x128.rank) ∈ DK.rhsNonContracting by decide)]
  rfl
theorem DK_rhs1 (i : S64x1024.Idx) (k : DK.contr.Idx) : (DK.rhsIdx i k 1).val = (k ⟨0, by decide⟩).val :=
  DK.rhsIdx_val_of_single rfl i k

/-- The matrix product into the zero accumulator, read at `(b, col)`: the inner product of row `b` of the left
    operand with row `col` of the right. -/
theorem scores_apply (l : FVec Ideal S64x128 .bf16) (r : FVec Ideal S1024x128 .bf16) (b : Fin 64) (col : Fin 1024) :
    matmul DK none l r (constant S64x1024 .f32 0x00000000#32) (ix2 b col) = ∑ d : Fin 128, l (ix2 b d) * r (ix2 col d) := by
  simp only [matmul]
  rw [Ideal.matmul_constant_zero_apply, ← Equiv.sum_comp (contrEquiv1 DK 128 rfl rfl).symm]
  refine Finset.sum_congr rfl fun k _ => ?_
  have hk := contrEquiv1_symm_val DK 128 rfl rfl k
  have el : DK.lhsIdx (ix2 b col) ((contrEquiv1 DK 128 rfl rfl).symm k) = ix2 b k := funext fun a => Fin.ext (by
    match a with
    | ⟨0, _⟩ => exact DK_lhs0 _ _
    | ⟨1, _⟩ => exact (DK_lhs1 _ _).trans hk)
  have er : DK.rhsIdx (ix2 b col) ((contrEquiv1 DK 128 rfl rfl).symm k) = ix2 col k := funext fun a => Fin.ext (by
    match a with
    | ⟨0, _⟩ => exact DK_rhs0 _ _
    | ⟨1, _⟩ => exact (DK_rhs1 _ _).trans hk)
  rw [el, er]

/-- The final payload at `(b, col)`: the logistic of what the buffer held there plus the inner product of user row
    `b` with candidate row `col`. -/
theorem pay3_apply (v91 : Vec Ideal S64x128 .f32) (v94 : Vec Ideal S1024x128 .f32) (v97 : Vec Ideal S64x1024 .f32)
    (b : Fin 64) (col : Fin 1024) :
    k0_pay3 v91 v94 v97 (ix2 b col)
      = Ideal.logistic (v97 (ix2 b col) + ∑ d : Fin 128, v91 (ix2 b d) * v94 (ix2 col d)) := by
  unfold k0_pay3
  refine congrArg Ideal.logistic (congrArg₂ (· + ·) (congrFun (shapeCast_self v97 _) _) ?_)
  refine (scores_apply _ _ b col).trans (Finset.sum_congr rfl fun d _ => ?_)
  rw [truncf_apply, truncf_apply, shapeCast_self]

end Cert.KernelIdeal.Rank
end
-- ==== Proof.LibSliceWrite.lean ====
/-
  Writing and reading through a unit-stride rectangle of an array, at an index. The rectangle of sizes `size` at
  offsets `off` holds the indices `y` with `off a ≤ y a < off a + size a` on every axis `a`; such a `y` is the
  rectangle's own index `y − off` (`unitLocal`) placed at `off + (y − off)`. An unmasked write through the
  rectangle puts the payload's element `y − off` at `y` and leaves every index outside the rectangle as it was; a
  read through the rectangle at its own index `x` is the array at `off + x`. Stated for any view (through `read`),
  for a whole buffer (directly on its contents), and with rank-2 indices spelled by coordinates.
-/
import Idealize.ShloMosaic.Signature.Memref
import Idealize.ShloMosaic.Lib.ValueIdx

namespace Cert.Lib

open Idealize.ShloMosaic Idealize.ShloMosaic.ValueIdx

section
variable {s : Shape}

/-- Membership in a unit-stride rectangle, as a proposition on the index's coordinates. -/
def InUnit (off size : Fin s.rank → Nat) (y : s.Idx) : Prop := ∀ a, off a ≤ (y a).val ∧ (y a).val < off a + size a

theorem mem_unit_iff {off size : Fin s.rank → Nat} {hin : ∀ a, off a + size a ≤ s.size a} {y : s.Idx} :
    y ∈ (Rect.unit off size hin).set ↔ InUnit off size y := Rect.mem_set_unit

/-- An index inside the rectangle, as the rectangle's own index: each coordinate less the offset. -/
def unitLocal (off size : Fin s.rank → Nat) (y : s.Idx) (h : InUnit off size y) : (⟨s.rank, size⟩ : Shape).Idx :=
  fun a => ⟨(y a).val - off a, by have := h a; show (y a).val - off a < size a; omega⟩

/-- The rectangle places its own index `x` at `off + x`. -/
theorem emb_unit_val (off size : Fin s.rank → Nat) (hin : ∀ a, off a + size a ≤ s.size a)
    (x : (Rect.unit off size hin).shape.Idx) (a : Fin s.rank) :
    ((Rect.unit off size hin).emb x a).val = off a + (x a).val := by
  show off a + 1 * (x a).val = _
  rw [Nat.one_mul]

/-- It places `y − off` back at `y`. -/
theorem emb_unitLocal (off size : Fin s.rank → Nat) (hin : ∀ a, off a + size a ≤ s.size a) (y : s.Idx)
    (h : InUnit off size y) : (Rect.unit off size hin).emb (unitLocal off size y h) = y := by
  funext a; refine Fin.ext ?_
  rw [emb_unit_val]
  show off a + ((y a).val - off a) = (y a).val
  have := (h a).1; omega

end

section
variable {sig : RefSig} {κ : Kind} {sp : Space} {s : Shape} {e : EltTy} {Val : EltTy → Type}

/-! ## Through any view -/

/-- After an unmasked write through the rectangle, an index inside it reads the payload at `y − off`. -/
theorem read_write_unit_of_mem (v : View sig κ sp s e) (off size : Fin s.rank → Nat)
    (hin : ∀ a, off a + size a ≤ s.size a) (f : v.ty.Contents Val)
    (w : (Rect.unit off size hin).shape.Idx → Val e) (y : s.Idx) (h : InUnit off size y) :
    v.read Val ((v.slice (Rect.unit off size hin)).write Val f w Finset.univ) y = w (unitLocal off size y h) := by
  conv_lhs => rw [← emb_unitLocal off size hin y h]
  exact View.read_slice_write_emb _ f w (Finset.mem_univ _)

/-- An index outside the rectangle reads what was there before. -/
theorem read_write_unit_of_not_mem (v : View sig κ sp s e) (off size : Fin s.rank → Nat)
    (hin : ∀ a, off a + size a ≤ s.size a) (f : v.ty.Contents Val)
    (w : (Rect.unit off size hin).shape.Idx → Val e) (y : s.Idx) (h : ¬ InUnit off size y) :
    v.read Val ((v.slice (Rect.unit off size hin)).write Val f w Finset.univ) y = v.read Val f y :=
  View.read_slice_write_of_not_mem _ f w Finset.univ (by rw [Rect.map_emb_univ, mem_unit_iff]; exact h)

/-- A read through the rectangle at its own index is the view's read at the index it is placed at. -/
theorem read_slice_unit (v : View sig κ sp s e) (off size : Fin s.rank → Nat)
    (hin : ∀ a, off a + size a ≤ s.size a) (f : v.ty.Contents Val) (x : (Rect.unit off size hin).shape.Idx) :
    (v.slice (Rect.unit off size hin)).read Val f x = v.read Val f ((Rect.unit off size hin).emb x) := rfl

end

section
variable {sig : RefSig} {κ : Kind} {Val : EltTy → Type}

/-! ## A whole buffer: directly on its contents -/

/-- Written through a unit-stride rectangle of the whole buffer `b`, an index inside the rectangle holds the
    payload at `i − off`. -/
theorem whole_write_unit_of_mem (b : Ref sig κ) (off size : Fin b.ty.shape.rank → Nat)
    (hin : ∀ a, off a + size a ≤ b.ty.shape.size a) (hs : ∀ a, (Rect.unit off size hin).stride a = 1)
    (f : b.ty.Contents Val) (w : (Rect.unit off size hin).shape.Idx → Val b.ty.elt) (i : b.ty.shape.Idx)
    (h : InUnit off size i) :
    ((Memref.whole b).slice (Rect.unit off size hin) hs).view.write Val f w Finset.univ i
      = w (unitLocal off size i h) :=
  read_write_unit_of_mem (View.whole b) off size hin f w i h

/-- An index outside the rectangle holds what it held. -/
theorem whole_write_unit_of_not_mem (b : Ref sig κ) (off size : Fin b.ty.shape.rank → Nat)
    (hin : ∀ a, off a + size a ≤ b.ty.shape.size a) (hs : ∀ a, (Rect.unit off size hin).stride a = 1)
    (f : b.ty.Contents Val) (w : (Rect.unit off size hin).shape.Idx → Val b.ty.elt) (i : b.ty.shape.Idx)
    (h : ¬ InUnit off size i) :
    ((Memref.whole b).slice (Rect.unit off size hin) hs).view.write Val f w Finset.univ i = f i :=
  read_write_unit_of_not_mem (View.whole b) off size hin f w i h

/-- Read through the rectangle at its own index `x`: the contents at the index `x` is placed at, `off + x`. -/
theorem whole_read_unit (b : Ref sig κ) (off size : Fin b.ty.shape.rank → Nat)
    (hin : ∀ a, off a + size a ≤ b.ty.shape.size a) (hs : ∀ a, (Rect.unit off size hin).stride a = 1)
    (f : b.ty.Contents Val) (x : (Rect.unit off size hin).shape.Idx) :
    ((Memref.whole b).slice (Rect.unit off size hin) hs).view.read Val f x = f ((Rect.unit off size hin).emb x) :=
  rfl

end

/-! ## Rank 2, by coordinates -/

section
variable {R C : Nat}

/-- Inside the `[m, n]` rectangle at `(a, b)`: both coordinates in their ranges. -/
theorem inUnit_ix2_iff (a b m n : Nat) (p : Fin R) (q : Fin C) :
    InUnit (s := ⟨2, ![R, C]⟩) ![a, b] ![m, n] (ix2 p q) ↔ (a ≤ p.val ∧ p.val < a + m) ∧ (b ≤ q.val ∧ q.val < b + n) :=
  Fin.forall_fin_two

/-- The local index of `(p, q)` in the rectangle at `(a, b)` is `(p − a, q − b)`. -/
theorem unitLocal_ix2 (a b m n : Nat) (p : Fin R) (q : Fin C)
    (h : InUnit (s := ⟨2, ![R, C]⟩) ![a, b] ![m, n] (ix2 p q)) :
    unitLocal (s := ⟨2, ![R, C]⟩) ![a, b] ![m, n] (ix2 p q) h
      = ix2 (n0 := m) (n1 := n)
          ⟨p.val - a, by have h0 : a ≤ p.val ∧ p.val < a + m := h 0; omega⟩
          ⟨q.val - b, by have h1 : b ≤ q.val ∧ q.val < b + n := h 1; omega⟩ := by
  funext k
  match k with
  | ⟨0, _⟩ => rfl
  | ⟨1, _⟩ => rfl

/-- The rectangle at `(a, b)` places its own `(x0, x1)` at `(a + x0, b + x1)`. -/
theorem emb_unit_ix2 (a b m n : Nat)
    (hin : ∀ k, (![a, b] : Fin 2 → Nat) k + (![m, n] : Fin 2 → Nat) k ≤ (⟨2, ![R, C]⟩ : Shape).size k)
    (x0 : Fin m) (x1 : Fin n) :
    (Rect.unit (s := ⟨2, ![R, C]⟩) ![a, b] ![m, n] hin).emb (ix2 x0 x1)
      = ix2 (n0 := R) (n1 := C)
          ⟨a + x0.val, by have h0 : a + m ≤ R := hin 0; have := x0.isLt; omega⟩
          ⟨b + x1.val, by have h1 : b + n ≤ C := hin 1; have := x1.isLt; omega⟩ := by
  funext k; refine Fin.ext ?_
  rw [emb_unit_val]
  match k with
  | ⟨0, _⟩ => rfl
  | ⟨1, _⟩ => rfl

/-- Through any view of an `[R, C]` array: after an unmasked write through the `[m, n]` rectangle at `(a, b)`, the
    element `(p, q)` inside it reads the payload at `(p − a, q − b)`. -/
theorem read_write_unit2_of_mem {sig : RefSig} {κ : Kind} {sp : Space} {e : EltTy} {Val : EltTy → Type}
    (v : View sig κ sp ⟨2, ![R, C]⟩ e) (a b m n : Nat)
    (hin : ∀ k, (![a, b] : Fin 2 → Nat) k + (![m, n] : Fin 2 → Nat) k ≤ (⟨2, ![R, C]⟩ : Shape).size k)
    (f : v.ty.Contents Val) (w : (⟨2, ![m, n]⟩ : Shape).Idx → Val e) (p : Fin R) (q : Fin C)
    (hp : a ≤ p.val ∧ p.val < a + m) (hq : b ≤ q.val ∧ q.val < b + n) :
    v.read Val ((v.slice (Rect.unit ![a, b] ![m, n] hin)).write Val f w Finset.univ) (ix2 p q)
      = w (ix2 (n0 := m) (n1 := n) ⟨p.val - a, by omega⟩ ⟨q.val - b, by omega⟩) := by
  rw [read_write_unit_of_mem v ![a, b] ![m, n] hin f w (ix2 p q) ((inUnit_ix2_iff a b m n p q).mpr ⟨hp, hq⟩),
    unitLocal_ix2]

/-- The same outside the rectangle: the element reads what was there. -/
theorem read_write_unit2_of_not_mem {sig : RefSig} {κ : Kind} {sp : Space} {e : EltTy} {Val : EltTy → Type}
    (v : View sig κ sp ⟨2, ![R, C]⟩ e) (a b m n : Nat)
    (hin : ∀ k, (![a, b] : Fin 2 → Nat) k + (![m, n] : Fin 2 → Nat) k ≤ (⟨2, ![R, C]⟩ : Shape).size k)
    (f : v.ty.Contents Val) (w : (⟨2, ![m, n]⟩ : Shape).Idx → Val e) (p : Fin R) (q : Fin C)
    (h : ¬ ((a ≤ p.val ∧ p.val < a + m) ∧ (b ≤ q.val ∧ q.val < b + n))) :
    v.read Val ((v.slice (Rect.unit ![a, b] ![m, n] hin)).write Val f w Finset.univ) (ix2 p q)
      = v.read Val f (ix2 p q) :=
  read_write_unit_of_not_mem v ![a, b] ![m, n] hin f w (ix2 p q) (fun hh => h ((inUnit_ix2_iff a b m n p q).mp hh))

end

end Cert.Lib
-- ==== Proof.IdealBlock.lean ====
/-
  What the body leaves in its output block, entry by entry, over the extended reals.

  With the user rows `x1`, the shifted user rows `x2` and the 1024 candidate rows `x3` in the input buffers, entry
  `(b, col)` of the 64 x 1024 output block ends at
      logistic ( sum over d of |x2 (b, d) - x3 (col, d)|  +  sum over d of x1 (b, d) * x3 (col, d) ).
  The last store is of the whole block, so the block is that store's payload: the logistic of the buffer as read
  back plus the matrix product. The buffer as read back is the eight chunk stores' tiling of it, and chunk `k`'s
  payload at `(b, q)` is the distance of shifted user row `b` to candidate row `128 k + q`: the eight tiles are the
  restrictions of one 64 x 1024 array of distances.
-/
import proofs.«116940_j35450660061923_2_alg».proof.Proof.IdealFrame
import proofs.«116940_j35450660061923_2_alg».proof.Proof.IdealPay
import proofs.«116940_j35450660061923_2_alg».proof.Proof.LibSliceWrite

set_option maxRecDepth 16384

noncomputable section

namespace Cert.KernelIdeal.Rank

open Cert.KernelIdeal Cert.KernelIdeal.Gen Cert.KernelIdeal.Body Cert.Lib
open Idealize.ShloMosaic Idealize.ShloMosaic.ValueIdx Idealize.ShloMosaic.Tactic

/-! ## The distances the eight chunk stores leave -/

/-- The 64 x 1024 array of L1 distances of each row of `x2` to each row of `x3`. -/
def distG (x2 : Vec Ideal S64x128 .f32) (x3 : Vec Ideal S1024x128 .f32) : FVec Ideal S64x1024 .f32 :=
  fun y => ∑ d : Fin 128, FloatOps.absf (x2 (ix2 (y 0) d) - x3 (ix2 (y 1) d))

theorem distG_ix2 (x2 : Vec Ideal S64x128 .f32) (x3 : Vec Ideal S1024x128 .f32) (b : Fin 64) (col : Fin 1024) :
    distG x2 x3 (ix2 b col) = ∑ d : Fin 128, FloatOps.absf (x2 (ix2 b d) - x3 (ix2 col d)) := rfl

/-- A chunk store at column offset `off` whose payload is the distances to the 128 candidate rows loaded from row
    offset `off` agrees with `distG` on its rectangle. -/
theorem tile_agrees (x2 : Vec Ideal S64x128 .f32) (x3 : Vec Ideal S1024x128 .f32) (off : Nat)
    (hin4 : ∀ a, (![0, off] : Fin 2 → Nat) a + (![64, 128] : Fin 2 → Nat) a ≤ S64x1024.size a)
    (hin3 : ∀ a, (![off, 0] : Fin 2 → Nat) a + (![128, 128] : Fin 2 → Nat) a ≤ S1024x128.size a)
    (w : FVec Ideal S64x128 .f32)
    (hw : ∀ (b : Fin 64) (q : Fin 128), w (ix2 b q)
      = ∑ d : Fin 128, FloatOps.absf (x2 (ix2 b d) - View.ld x3 (Rect.unit (s := S1024x128) ![off, 0] ![128, 128] hin3) (ix2 q d)))
    (x : (Rect.unit (s := S64x1024) ![0, off] ![64, 128] hin4).shape.Idx) :
    w x = distG x2 x3 ((Rect.unit (s := S64x1024) ![0, off] ![64, 128] hin4).emb x) := by
  obtain ⟨b, q, rfl⟩ : ∃ (b : Fin 64) (q : Fin 128), x = ix2 b q := ⟨x 0, x 1, eq_ix2 x⟩
  rw [hw, emb_unit_ix2, distG_ix2]
  refine Finset.sum_congr rfl fun d _ => ?_
  show FloatOps.absf (F := Ideal) (φ := .f32) (x2 (ix2 b d) - x3 ((Rect.unit (s := S1024x128) ![off, 0] ![128, 128] hin3).emb (ix2 q d))) = _
  rw [emb_unit_ix2]
  simp only [Nat.zero_add, Fin.eta]

/-- Through the whole-shape rectangle at zero offsets an index is placed at itself. -/
theorem idx_unit_zero {S : Shape} {off : Fin S.rank → Nat} (h : off = fun _ => 0)
    (inb : ∀ a, off a + S.size a ≤ S.size a) (x : S.Idx) : (Rect.unit off S.size inb).idx x = x := by
  subst h; exact Rect.emb_whole_apply S x

section
variable (c : Dev nD) (i : grid0.Coords)
    (arg1 : Memref sig .tc .vmem S64x128 .f32) (harg1 : arg1.IsWhole)
    (arg2 : Memref sig .tc .vmem S64x128 .f32) (harg2 : arg2.IsWhole)
    (arg3 : Memref sig .tc .vmem S1024x128 .f32) (harg3 : arg3.IsWhole)
    (arg4 : Memref sig .tc .vmem S64x1024 .f32) (harg4 : arg4.IsWhole)
    (x1 x2 : Vec Ideal S64x128 .f32) (x3 : Vec Ideal S1024x128 .f32)

/-- Entry `(b, col)` of the block the body leaves. -/
theorem outBlk_apply (b : Fin 64) (col : Fin 1024) :
    outBlk c i arg1 harg1 arg2 harg2 arg3 harg3 arg4 harg4 x1 x2 x3 (ix2 b col)
      = Ideal.logistic (distG x2 x3 (ix2 b col) + ∑ d : Fin 128, x1 (ix2 b d) * x3 (ix2 col d)) := by
  have hz : (![0, 0] : Fin 2 → Nat) = fun _ => 0 := funext fun a => by fin_cases a <;> rfl
  unfold outBlk
  rw [View.read_writes_junk_eq_canon]
  unfold kernelRun; dsimp only
  rw [View.canon_cons_unit_zero hz, pay3_apply]
  simp only [View.readAt_eq_ld, harg1.read_unread, harg3.read_unread]
  unfold kernelRun.sl.v97
  rw [View.readCov_eq_canon']
  beta_reduce
  rw [idx_unit_zero (S := S64x1024) hz]
  have hcanon : View.canon (kernelRun.sl.Ho_8 c arg2 harg2 arg3 harg3 x2 x3) (ix2 b col) = distG x2 x3 (ix2 b col) := by
    refine View.canon_apply_of_pieces (distG x2 x3) _ ?_ (ix2 b col)
      (View.cover_of_tiledL (kernelRun.sl.Ho_8 c arg2 harg2 arg3 harg3 x2 x3) S64x128.size (by sl_kernel_rfl) (ix2 b col))
    unfold kernelRun.sl.Ho_8 kernelRun.sl.r_2 kernelRun.sl.r_1 kernelRun.sl.r
    simp only [View.readAt_eq_ld, harg2.read_unread, harg3.read_unread, View.ld_unit_zero (S := S64x128) hz]
    intro p hp
    simp only [List.mem_cons, List.mem_singleton, List.not_mem_nil, or_false] at hp
    rcases hp with rfl | rfl | rfl | rfl | rfl | rfl | rfl | rfl
    · exact tile_agrees x2 x3 896 inb_S64x1024_S64x128_0_896 inb_S1024x128_S128x128_896_0 _ (fun b q => (pay2_apply _ _ b q).trans (Finset.sum_congr rfl fun d _ => by rw [pay4_apply]; rfl))
    · exact tile_agrees x2 x3 768 inb_S64x1024_S64x128_0_768 inb_S1024x128_S128x128_768_0 _ (fun b q => (pay1_apply _ _ b q).trans (Finset.sum_congr rfl fun d _ => by rw [pay4_apply]; rfl))
    · exact tile_agrees x2 x3 640 inb_S64x1024_S64x128_0_640 inb_S1024x128_S128x128_640_0 _ (fun b q => (pay10_apply _ _ b q).trans (Finset.sum_congr rfl fun d _ => by rw [pay4_apply]; rfl))
    · exact tile_agrees x2 x3 512 inb_S64x1024_S64x128_0_512 inb_S1024x128_S128x128_512_0 _ (fun b q => (pay9_apply _ _ b q).trans (Finset.sum_congr rfl fun d _ => by rw [pay4_apply]; rfl))
    · exact tile_agrees x2 x3 384 inb_S64x1024_S64x128_0_384 inb_S1024x128_S128x128_384_0 _ (fun b q => (pay8_apply _ _ b q).trans (Finset.sum_congr rfl fun d _ => by rw [pay4_apply]; rfl))
    · exact tile_agrees x2 x3 256 inb_S64x1024_S64x128_0_256 inb_S1024x128_S128x128_256_0 _ (fun b q => pay7_apply x2 _ b q)
    · exact tile_agrees x2 x3 128 inb_S64x1024_S64x128_0_128 inb_S1024x128_S128x128_128_0 _ (fun b q => pay6_apply x2 _ b q)
    · exact tile_agrees x2 x3 0 inb_S64x1024_S64x128_0_0 inb_S1024x128_S128x128_0_0 _ (fun b q => pay5_apply x2 _ b q)
  rw [hcanon]
  refine congrArg (fun s => Ideal.logistic (distG x2 x3 (ix2 b col) + s)) (Finset.sum_congr rfl fun d _ => ?_)
  exact congrArg₂ (· * ·) (congrArg x1 (idx_unit_zero (S := S64x128) hz _ (ix2 b d)))
    (congrArg x3 (idx_unit_zero (S := S1024x128) hz _ (ix2 col d)))
end
end Cert.KernelIdeal.Rank
end
-- ==== Proof.IdealArray.lean ====
/-
  From blocks to the array: after the run the 64 x 16384 result holds, at `(b, i)`,
      logistic ( sum over d of |upb (b, d) - E (i, d)|  +  sum over d of u (b, d) * E (i, d) )
  where `u` are the gathered user rows, `upb` the user rows shifted by the relation row, and `E` the embedding
  table, all as the pipeline finds them.

  Point `t` of the grid holds the whole of `u` and `upb`, rows 1024 t .. 1024 t + 1023 of `E`, and writes columns
  1024 t .. 1024 t + 1023 of the result. So the block point `t` writes back is the restriction of the one function
  above to those columns, and the sixteen blocks cover the result: column `i` belongs to point `i / 1024`.
-/
import proofs.«116940_j35450660061923_2_alg».proof.Proof.IdealBlock

set_option maxRecDepth 16384

noncomputable section

namespace Cert.KernelIdeal.Rank

open Cert.KernelIdeal Cert.KernelIdeal.Gen Cert.KernelIdeal.Body Cert.Lib
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The result as one function -/

/-- A row of the first 16384 as a row of the table. -/
def tableRow (i : Fin 16384) : Fin 100000 := ⟨i.val, by have := i.isLt; omega⟩

/-- The ranking: entry `(b, i)` from user row `b`, shifted user row `b` and table row `i`. -/
def rankG (u upb : Vec Ideal S64x128 .f32) (E : Vec Ideal S100000x128 .f32) : FVec Ideal S64x16384 .f32 :=
  fun y => Ideal.logistic ((∑ d : Fin 128, FloatOps.absf (F := Ideal) (φ := .f32) (upb (ix2 (y 0) d) - E (ix2 (tableRow (y 1)) d)))
    + ∑ d : Fin 128, u (ix2 (y 0) d) * E (ix2 (tableRow (y 1)) d))

theorem rankG_ix2 (u upb : Vec Ideal S64x128 .f32) (E : Vec Ideal S100000x128 .f32) (b : Fin 64) (i : Fin 16384) :
    rankG u upb E (ix2 b i) = Ideal.logistic ((∑ d : Fin 128, FloatOps.absf (F := Ideal) (φ := .f32) (upb (ix2 b d) - E (ix2 (tableRow i) d)))
      + ∑ d : Fin 128, u (ix2 b d) * E (ix2 (tableRow i) d)) := rfl

/-! ## The windows' blocks at an index -/

/-- The block indices, decided over the grid: the two resident inputs stay at block (0, 0); the candidate window
    is at row block `t`; the result window at column block `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

theorem N16 (t : Fin cfg0.N) : t.val < 16 := lt_of_lt_of_eq t.isLt (show cfg0.N = 16 from N_0)

/-- The user rows' block is the whole array. -/
theorem iblk0_apply (c : Dev nD) (t : Fin cfg0.N) (b : Fin 64) (d : Fin 128) :
    iblk m c 0 t (ix2 b d) = V m c main_v6 (ix2 b d) := by
  obtain ⟨e0, e1, -⟩ := idx_facts t
  unfold iblk
  show V m c main_v6 (((cfg0.win 0).blk t).view.emb (ix2 b d)) = _
  refine congrArg (V m c main_v6) (funext fun a => Fin.ext ?_)
  match a with
  | ⟨0, _⟩ => show win0_0.index t (0 : Fin 2) * 64 + 1 * b.val = b.val; omega
  | ⟨1, _⟩ => show win0_0.index t (1 : Fin 2) * 128 + 1 * d.val = d.val; omega

/-- The shifted user rows' block is the whole array. -/
theorem iblk1_apply (c : Dev nD) (t : Fin cfg0.N) (b : Fin 64) (d : Fin 128) :
    iblk m c 1 t (ix2 b d) = V m c main_v33 (ix2 b d) := by
  obtain ⟨-, -, e0, e1, -⟩ := idx_facts t
  unfold iblk
  show V m c main_v33 (((cfg0.win 1).blk t).view.emb (ix2 b d)) = _
  refine congrArg (V m c main_v33) (funext fun a => Fin.ext ?_)
  match a with
  | ⟨0, _⟩ => show win0_1.index t (0 : Fin 2) * 64 + 1 * b.val = b.val; omega
  | ⟨1, _⟩ => show win0_1.index t (1 : Fin 2) * 128 + 1 * d.val = d.val; omega

/-- The candidate buffer at point `t` holds rows 1024 t .. 1024 t + 1023 of the table. -/
theorem blk2_apply (c : Dev nD) (t : Fin cfg0.N) (r : Fin 1024) (d : Fin 128) :
    blk2 m c t (ix2 r d) = V m c main_arg2 (ix2 ⟨t.val * 1024 + r.val, by have := N16 t; have := r.isLt; omega⟩ d) := by
  obtain ⟨-, -, -, -, e0, e1, -⟩ := idx_facts t
  have hm : win0_2.moved (grid0.coords t) (ix2 r d) = true :=
    (win0_2.moved_iff _ _).mpr fun a => by
      have := (ix2 r d a).isLt; unfold Pipeline.Window.xsize; rw [clip2 t a]; exact this
  unfold blk2 Pipeline.Window.fill
  rw [dif_pos hm]
  unfold iblk
  show V m c main_arg2 (((cfg0.win 2).blk t).view.emb _) = _
  refine congrArg (V m c main_arg2) (funext fun a => Fin.ext ?_)
  match a with
  | ⟨0, _⟩ => show win0_2.index t (0 : Fin 2) * 1024 + 1 * r.val = t.val * 1024 + r.val; omega
  | ⟨1, _⟩ => show win0_2.index t (1 : Fin 2) * 128 + 1 * d.val = d.val; omega

/-! ## What a point writes back, the cover, the array -/

/-- What point `t` writes back is block `t` of `rankG` of the arrays as the pipeline finds them. -/
theorem flushed_eq (c : Dev nD) (t : Fin cfg0.N) :
    (dats m 0 c).flushed 3 t
      = ((cfg0.win 3).blk t).view.read (Elt Ideal) (rankG (V m c main_v6) (V m c main_v33) (V m c main_arg2)) := by
  obtain ⟨-, -, -, -, -, -, e0, e1⟩ := idx_facts t
  show (cfg0.win 3).cut (grid0.coords t) ((dats m 0 c).after 3 t) = _
  rw [after3]
  funext j
  obtain ⟨b, col, rfl⟩ : ∃ (b : Fin 64) (col : Fin 1024), j = ix2 b col := ⟨j 0, j 1, eq_ix2 j⟩
  have hcol : t.val * 1024 + col.val < 16384 := by have := N16 t; have := col.isLt; omega
  have e : ((cfg0.win 3).blk t).view.emb (ix2 b col) = ix2 b (⟨t.val * 1024 + col.val, hcol⟩ : Fin 16384) :=
    funext fun a => Fin.ext (by
      match a with
      | ⟨0, _⟩ => show win0_3.index t (0 : Fin 2) * 64 + 1 * b.val = b.val; omega
      | ⟨1, _⟩ => show win0_3.index t (1 : Fin 2) * 1024 + 1 * col.val = t.val * 1024 + col.val; omega)
  show outsAt m c t (ix2 b col) = rankG _ _ _ (((cfg0.win 3).blk t).view.emb (ix2 b col))
  rw [e, rankG_ix2]
  unfold outsAt
  rw [outBlk_apply, distG_ix2]
  refine congrArg Ideal.logistic (congrArg₂ (· + ·) (Finset.sum_congr rfl fun d _ => ?_) (Finset.sum_congr rfl fun d _ => ?_))
  · rw [iblk1_apply, blk2_apply]; rfl
  · rw [iblk0_apply, blk2_apply]; rfl

/-- An index of the result is in point `t`'s block iff each coordinate is in the block's range. -/
theorem mem_blk (t : Fin cfg0.N) (i : S64x16384.Idx) :
    i ∈ ((cfg0.win 3).blk t).view.set ↔ ∀ a : Fin 2, win0_3.index t a * S64x1024.size a ≤ (i a).val
      ∧ (i a).val < win0_3.index t a * S64x1024.size a + S64x1024.size a := by
  show i ∈ ((View.whole main_v34).slice (win0_3.rect t)).set ↔ _
  rw [View.set_slice_whole, Rect.mem_set_unit]
  exact Iff.rfl

/-- Every index of the result is in some point's block: column `i` in point `i / 1024`'s. -/
theorem covered (i : S64x16384.Idx) :
    ∃ t : Fin cfg0.N, (cfg0.win 3).flush t = true ∧ i ∈ ((cfg0.win 3).blk t).view.set := by
  have hi0 : (i 0).val < 64 := (i 0).isLt
  have hi1 : (i 1).val < 16384 := (i 1).isLt
  let t : Fin cfg0.N := ⟨(i 1).val / 1024, by rw [show cfg0.N = 16 from N_0]; omega⟩
  obtain ⟨-, -, -, -, -, -, e0, e1⟩ := idx_facts t
  have ht : t.val = (i 1).val / 1024 := rfl
  refine ⟨t, flush0_3 t, (mem_blk t i).mpr fun a => ?_⟩
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 1024 ≤ (i 1).val ∧ (i 1).val < win0_3.index t (1 : Fin 2) * 1024 + 1024; omega

/-- The result array after the run. -/
theorem final (c : Dev nD) :
    (dats m 0 c).arrAt 3 cfg0.N = rankG (V m c main_v6) (V m c main_v33) (V m c main_arg2) :=
  (dats m 0 c).arrAt_eq_of_cover 3 _ (fun t _ => flushed_eq m c t) covered

end Cert.KernelIdeal.Rank

end
-- ==== Proof.RefRank.lean ====
/-
  The reference's ranking, read at an index, over the extended reals. The generated stage-by-stage reading of the
  reference is chained from its last operation down to the gathered user rows, the relation row and the table,
  which stay as they are named there.
-/
import proofs.«116940_j35450660061923_2_alg».proof.Proof.Gen.ReferenceIdeal.Read
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- The word of `1.0` denotes the real number 1. -/
theorem one_f32 : Ideal.ofBits .f32 0x3F800000#32 = 1 := by
  simp [Ideal.ofBits, Ideal.ieee, -EReal.coe_mul]; norm_num

section
variable (x0 : (⟨S64, .i32⟩ : BufTy).Contents (Elt Ideal)) (x2 : (⟨S100000x128, .f32⟩ : BufTy).Contents (Elt Ideal))
    (x3 : (⟨S16x128, .f32⟩ : BufTy).Contents (Elt Ideal))

/-- The reference's ranking at `(b, i)`: with `u` its gathered user rows and `w` the last relation row, the logistic
    (spelt on the host as `1 / (1 + exp (-x))`, which is the logistic function's definition over the extended reals)
    of the L1 distance of `u b + w` to table row `i` plus the inner product of `u b` with table row `i`. -/
theorem ref_rank_apply (b : Fin 64) (i : Fin 16384) :
    val_main_v49 (F := Ideal) x0 x2 x3 (ix2 b i)
      = Ideal.logistic ((∑ d : Fin 128, FloatOps.absf (F := Ideal) (φ := .f32)
            ((val_main_v6 (F := Ideal) x0 x2 (ix2 b d) + val_main_v15 (F := Ideal) x3 (ix1 d))
              - x2 (ix2 (⟨i.val, by have := i.isLt; omega⟩ : Fin 100000) d)))
          + ∑ d : Fin 128, val_main_v6 (F := Ideal) x0 x2 (ix2 b d) * x2 (ix2 (⟨i.val, by have := i.isLt; omega⟩ : Fin 100000) d)) := by
  have e1 : ∀ k : Fin 128, idx_main_v33 (idx_main_v38 (idx_main_v42 (ix2 b i) k)) = ix2 b k := fun k =>
    funext fun a => Fin.ext (by match a with | ⟨0, _⟩ => rfl | ⟨1, _⟩ => rfl)
  have e2 : ∀ k : Fin 128, idx_main_v34 (idx_main_v35 (idx_main_v38 (idx_main_v42 (ix2 b i) k))) = ix1 k := fun k =>
    funext fun a => Fin.ext (by match a with | ⟨0, _⟩ => rfl)
  have e3 : ∀ k : Fin 128, idx_main_v16 (idx_main_v37 (idx_main_v39 (idx_main_v42 (ix2 b i) k)))
      = ix2 (⟨i.val, by have := i.isLt; omega⟩ : Fin 100000) k := fun k =>
    funext fun a => Fin.ext (by match a with | ⟨0, _⟩ => rfl | ⟨1, _⟩ => rfl)
  have e4 : ∀ k : Fin 128, lidx_main_v32 (ix2 b i) k = ix2 b k := fun k =>
    funext fun a => Fin.ext (by match a with | ⟨0, _⟩ => rfl | ⟨1, _⟩ => rfl)
  have e5 : ∀ k : Fin 128, idx_main_v16 (ridx_main_v32 (ix2 b i) k)
      = ix2 (⟨i.val, by have := i.isLt; omega⟩ : Fin 100000) k := fun k =>
    funext fun a => Fin.ext (by match a with | ⟨0, _⟩ => rfl | ⟨1, _⟩ => rfl)
  simp only [val_main_v49_apply, val_main_v48_apply, val_main_cst_8_apply, val_main_v47_apply, val_main_v46_apply,
    val_main_cst_7_apply, val_main_v45_apply, val_main_v44_apply, val_main_v43_apply, val_main_v42_apply,
    val_main_cst_6_apply, val_main_v32_apply, val_main_v41_apply, val_main_v40_apply, val_main_v38_apply,
    val_main_v36_apply, val_main_v33_apply, val_main_v35_apply, val_main_v34_apply, val_main_v39_apply,
    val_main_v37_apply, val_main_v16_apply, e1, e2, e3, e4, e5]
  simp only [Ideal.ofBits_def, Ideal.ofBits_zero_f32, one_f32, zero_add, Ideal.hostDivf_def, Ideal.addf_def,
    Ideal.hostUnary_exp_def, Ideal.hostNegf_def, Ideal.negf_def, Ideal.hostAbsf_def, Ideal.subf_def]
  rfl

/-- The reference's shifted user rows at `(b, d)`: the user row's entry plus the relation row's. -/
theorem ref_shift_apply (b : Fin 64) (d : Fin 128) :
    val_main_v21 (F := Ideal) x0 x2 x3 (ix2 b d)
      = val_main_v6 (F := Ideal) x0 x2 (ix2 b d) + val_main_v15 (F := Ideal) x3 (ix1 d) := by
  have e : idx_main_v19 (idx_main_v20 (ix2 b d)) = ix1 d :=
    funext fun a => Fin.ext (by match a with | ⟨0, _⟩ => rfl)
  rw [val_main_v21_apply, val_main_v20_apply, val_main_v19_apply, e]
  rfl

end

end Cert.ReferenceIdeal.RefValue
end
-- ==== Proof.Rank.lean ====
/-
  The two programs' results are one function of the arguments.

  The kernel's host operations before its call compute the gathered user rows, the user rows shifted by the last
  relation row, and the 64 pairwise predictions by the same operations, in the same order, as the reference's
  stages of those names: the arrays the pipeline finds are the reference's stages of the same arguments. With
  that, the result array the pipeline leaves (the ranking as one function of user rows, shifted rows and table)
  is the reference's ranking stage, entry by entry: the shifted row's entry is the user row's plus the relation
  row's on both sides, and the table rows the kernel's blocks read are the first 16384 the reference slices.
-/
import proofs.«116940_j35450660061923_2_alg».proof.Proof.IdealArray
import proofs.«116940_j35450660061923_2_alg».proof.Proof.RefRank
import Idealize.ShloMosaic.Lib.StableHlo.Run

set_option maxRecDepth 16384

noncomputable section

namespace Cert.KernelIdeal.Rank

open Cert.KernelIdeal Cert.KernelIdeal.Gen Cert.KernelIdeal.Body
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The gathered user rows the pipeline finds are the reference's, of the same arguments. -/
theorem users_eq (c : Dev nD) :
    (V m c main_v6 : S64x128.Idx → Elt Ideal .f32)
      = Cert.ReferenceIdeal.Read.val_main_v6 (F := Ideal) (m ((c.tc : Thread nD τ).loc main_arg0)) (m ((c.tc : Thread nD τ).loc main_arg2)) := by
  dsimp only [V, hostOps0]; after_results; rfl

set_option maxHeartbeats 8000000 in
/-- The shifted user rows the pipeline finds are the reference's. -/
theorem shifted_eq (c : Dev nD) :
    (V m c main_v33 : S64x128.Idx → Elt Ideal .f32)
      = Cert.ReferenceIdeal.Read.val_main_v21 (F := Ideal) (m ((c.tc : Thread nD τ).loc main_arg0)) (m ((c.tc : Thread nD τ).loc main_arg2))
          (m ((c.tc : Thread nD τ).loc main_arg3)) := by
  dsimp only [V, hostOps0]; after_results; rfl

set_option maxHeartbeats 8000000 in
/-- The pairwise predictions the kernel's host operations leave are the reference's. -/
theorem predict_eq (c : Dev nD) :
    (V m c main_v30 : S64.Idx → Elt Ideal .f32)
      = Cert.ReferenceIdeal.Read.val_main_v31 (F := Ideal) (m ((c.tc : Thread nD τ).loc main_arg0)) (m ((c.tc : Thread nD τ).loc main_arg1))
          (m ((c.tc : Thread nD τ).loc main_arg2)) (m ((c.tc : Thread nD τ).loc main_arg3)) := by
  dsimp only [V, hostOps0]; after_results; rfl

/-- The ranking the pipeline leaves is the reference's ranking stage of the same arguments. -/
theorem rank_eq (c : Dev nD) :
    rankG (V m c main_v6) (V m c main_v33) (V m c main_arg2)
      = Cert.ReferenceIdeal.Read.val_main_v49 (F := Ideal) (m ((c.tc : Thread nD τ).loc main_arg0)) (m ((c.tc : Thread nD τ).loc main_arg2))
          (m ((c.tc : Thread nD τ).loc main_arg3)) := by
  funext y
  obtain ⟨b, i, rfl⟩ : ∃ (b : Fin 64) (i : Fin 16384), y = ix2 b i := ⟨y 0, y 1, eq_ix2 y⟩
  rw [rankG_ix2, Cert.ReferenceIdeal.RefValue.ref_rank_apply, users_eq, shifted_eq, V_main_arg2]
  refine congrArg Ideal.logistic (congrArg₂ (· + ·) (Finset.sum_congr rfl fun d _ => ?_) rfl)
  rw [Cert.ReferenceIdeal.RefValue.ref_shift_apply]; rfl

/-- The kernel's run re-posted: the predictions and the ranking end at the reference's stages of the arguments,
    and the arguments end unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v30)
        = Cert.ReferenceIdeal.Read.val_main_v31 (F := Ideal) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v34)
        = Cert.ReferenceIdeal.Read.val_main_v49 (F := Ideal) (m ((c.tc : Thread nD τ).loc main_arg0)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v30 (Pipeline.mem_restRefs_of main_v30 (by decide) (by decide))).trans (predict_eq m c),
      ((h c).1 3).trans ((final m c).trans (rank_eq m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main (F := Ideal) m ρ)

end Cert.KernelIdeal.Rank

end
-- ==== Proof.lean ====
/-
  The certificate of the ranking kernel against its reference.

  Both programs gather 64 user rows and 64 item rows from a 100000 x 128 embedding table, take the last row of a
  16 x 128 relation table as a shift, and return (1) for each of the 64 pairs, the logistic of the L1 distance of
  the shifted user row to the item row plus their inner product, and (2) for each user row and each of the first
  16384 table rows, the same quantity against that table row. The reference computes (2) on whole arrays; the
  kernel computes it block by block, 1024 table rows at a grid point, reading the table itself (whose first 16
  blocks are exactly its first 16384 rows), and applies the logistic as one operation where the reference spells
  1 / (1 + exp (-x)). Over the extended reals these are the same function, and the sums are the same sums.

  The three frames: the kernel's two come from the run of its pipeline (the body run once on arbitrary buffers,
  at either float instance); the reference's is its run with the results dropped. The idealization rewrote
  nothing, so there is nothing to preserve. The values: `Rank` and the modules it rests on.
-/
import proofs.«116940_j35450660061923_2_alg».proof.Defs
import proofs.«116940_j35450660061923_2_alg».proof.Proof.Gen.Kernel
import proofs.«116940_j35450660061923_2_alg».proof.Proof.Gen.KernelIdeal
import proofs.«116940_j35450660061923_2_alg».proof.Proof.Gen.ReferenceIdeal
import proofs.«116940_j35450660061923_2_alg».proof.Proof.Gen.ReferenceIdeal.Run
import proofs.«116940_j35450660061923_2_alg».proof.Proof.Gen.ReferenceIdeal.Read
import proofs.«116940_j35450660061923_2_alg».proof.Proof.Gen.Pre_finite_inputs
import proofs.«116940_j35450660061923_2_alg».proof.Proof.IdealFrame
import proofs.«116940_j35450660061923_2_alg».proof.Proof.WordFrame
import proofs.«116940_j35450660061923_2_alg».proof.Proof.Rank
import Idealize.ShloMosaic.Adequacy
import Idealize.ShloMosaic.Init

noncomputable section

namespace Cert.Proof

open Idealize.ShloMosaic Idealize.SL.Sem

theorem frame_word : Cert.frame_Kernel (hKernel := Cert.Kernel.Gen.facts) (hPre_finite_inputs := Cert.Pre_finite_inputs.Gen.facts) :=
  fun m ρ _ => Cert.Kernel.Body.frame m ρ

theorem frame_ideal : Cert.frame_KernelIdeal (hKernelIdeal := Cert.KernelIdeal.Gen.facts) (hPre_finite_inputs := Cert.Pre_finite_inputs.Gen.facts) :=
  fun m ρ _ => Cert.KernelIdeal.Body.frame m ρ

theorem frame_ref : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both idealized programs, run from memories agreeing on the arguments, end with equal results: the kernel's
    run leaves the reference's two result stages of the arguments (`Rank.run_value`), and the reference's run
    leaves those stages of its own arguments, which are the same arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Rank.run_value m ρ, ?_⟩
  refine (θ_run Cert.ReferenceIdeal.defs _ _).mono (fun r h c =>
    ⟨?_, ?_, (h c).2.2.1, (h c).2.2.2.1, (h c).2.2.2.2.1, (h c).2.2.2.2.2⟩)
    (Cert.ReferenceIdeal.Value.run (F := Ideal) m' ρ')
  · rw [(h c).1, Cert.ReferenceIdeal.Read.val_main_v31_eq, (hagree c).1, (hagree c).2.1, (hagree c).2.2.1, (hagree c).2.2.2]
  · rw [(h c).2.1, Cert.ReferenceIdeal.Read.val_main_v49_eq, (hagree c).1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_word, frame_ideal, frame_ref, trivial, algebraic⟩

end Cert.Proof

end
